-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S100000x64 : Shape := ⟨2, ![100000, 64]⟩
abbrev S500000x64 : Shape := ⟨2, ![500000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_

variable [Facts]

def fn {F : FTy → Type} [FloatOps F] (main_arg0 : IVec S256 32) (main_arg1 : FVec F S100000x64 .f32) (main_arg2 : FVec F S500000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  main_v8
-- ==== Kernel.lean ====
abbrev S256 : Shape := ⟨1, ![256]⟩
abbrev S100000x64 : Shape := ⟨2, ![100000, 64]⟩
abbrev S500000x64 : Shape := ⟨2, ![500000, 64]⟩
abbrev S_ : Shape := ⟨0, ![]⟩
abbrev S256x1 : Shape := ⟨2, ![256, 1]⟩
abbrev S256x64 : Shape := ⟨2, ![256, 64]⟩
abbrev S256x500000 : Shape := ⟨2, ![256, 500000]⟩
abbrev S8192x64 : Shape := ⟨2, ![8192, 64]⟩
abbrev S256x8192 : Shape := ⟨2, ![256, 8192]⟩
abbrev S64x8192 : Shape := ⟨2, ![64, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 17
  | .vmem => 6
  | .smem => 0
  | _ => 0

abbrev bufTy : (tb : Table) → Fin (tcTables nBuf tb) → BufTy
  | .hbm, ⟨0, _⟩ => ⟨S256, .i32⟩
  | .hbm, ⟨1, _⟩ => ⟨S100000x64, .f32⟩
  | .hbm, ⟨2, _⟩ => ⟨S500000x64, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x500000, .f32⟩
  | .local _ .vmem, ⟨0, _⟩ => ⟨S256x64, .f32⟩
  | .local _ .vmem, ⟨1, _⟩ => ⟨S256x1, .f32⟩
  | .local _ .vmem, ⟨2, _⟩ => ⟨S8192x64, .f32⟩
  | .local _ .vmem, ⟨3, _⟩ => ⟨S8192x64, .f32⟩
  | .local _ .vmem, ⟨4, _⟩ => ⟨S256x8192, .f32⟩
  | .local _ .vmem, ⟨5, _⟩ => ⟨S256x8192, .f32⟩
  | _, _ => ⟨S256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x64_S256_d1 : S256x64.ReducesTo [1] S256
  h_S_ : 0 < S_.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  transposes_S8192x64_p1_0_S64x8192 : S8192x64.Transposes [1, 0] S64x8192
  reduces_S8192x64_S8192 : S8192x64.Reduces [1] S8192
  shapeCasts_S8192_S8192x1 : S8192.ShapeCasts S8192x1
  transposes_S8192x1_p1_0_S1x8192 : S8192x1.Transposes [1, 0] S1x8192
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  gather_S100000x64_S256x1_S256x64_1_0_n_n_0_1_164_wf : GatherDims.WF S100000x64 S256x1 S256x64 [1] [0] [] [0] [] 1 ![1, 64]
  dot_S256x64_S64x8192_S256x8192_1_0_0_1_n_n_wf : DotDims.WF S256x64 S64x8192 S256x8192 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S256x64.size a
  hwx0_0 : ∀ i : grid0.Coords, EltTy.bits .f32 = 32 ∨ (Rect.block (s := S256x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192x64.size a < S500000x64.size a
  hwx0_2 : ∀ i : grid0.Coords, EltTy.bits .f32 = 32 ∨ (Rect.unit (s := S500000x64) (fun a => cc0_transform_2 i a * S8192x64.size a) (fun a => (Pipeline.Clip.of (cc0_transform_2 i a) (S8192x64.size a) (S500000x64.size a)).extent (S8192x64.size a)) fun a => Pipeline.Clip.inb (Pipeline.Clip.ok_of (hstart0_2 i a))).WholeWords (EltTy.packing .f32)
  hwxs0_2 : ∀ i : grid0.Coords, EltTy.bits .f32 = 32 ∨ (Rect.unit (s := S8192x64) (fun _ => 0) (fun a => (Pipeline.Clip.of (cc0_transform_2 i a) (S8192x64.size a) (S500000x64.size a)).extent (S8192x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x8192.size a < S256x500000.size a
  hwx0_3 : ∀ i : grid0.Coords, EltTy.bits .f32 = 32 ∨ (Rect.unit (s := S256x500000) (fun a => cc0_transform_3 i a * S256x8192.size a) (fun a => (Pipeline.Clip.of (cc0_transform_3 i a) (S256x8192.size a) (S256x500000.size a)).extent (S256x8192.size a)) fun a => Pipeline.Clip.inb (Pipeline.Clip.ok_of (hstart0_3 i a))).WholeWords (EltTy.packing .f32)
  hwxs0_3 : ∀ i : grid0.Coords, EltTy.bits .f32 = 32 ∨ (Rect.unit (s := S256x8192) (fun _ => 0) (fun a => (Pipeline.Clip.of (cc0_transform_3 i a) (S256x8192.size a) (S256x500000.size a)).extent (S256x8192.size a)) fun a => (Nat.zero_add _).trans_le (Pipeline.Clip.extent_le (Pipeline.Clip.ok_of (hstart0_3 i a)))).WholeWords (EltTy.packing .f32)

variable [Facts₀]

def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S64x8192_S256x8192_1_0_0_1_n_n : DotDims S256x64 S64x8192 S256x8192 where
  lhsContracting := [1]
  rhsContracting := [0]
  lhsNonContracting := [0]
  rhsNonContracting := [1]
  lhsBatch := []
  rhsBatch := []
  wf := dot_S256x64_S64x8192_S256x8192_1_0_0_1_n_n_wf

abbrev win0_0 : Pipeline.Window sig grid0 :=
  Pipeline.Window.ofSpec (Memref.whole main_v6) S256x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S8192x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v10) S256x8192.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256 : Shape := ⟨1, ![256]⟩
abbrev S100000x64 : Shape := ⟨2, ![100000, 64]⟩
abbrev S500000x64 : Shape := ⟨2, ![500000, 64]⟩
abbrev S_ : Shape := ⟨0, ![]⟩
abbrev S256x1 : Shape := ⟨2, ![256, 1]⟩
abbrev S256x64 : Shape := ⟨2, ![256, 64]⟩
abbrev S500000 : Shape := ⟨1, ![500000]⟩
abbrev S256x500000 : Shape := ⟨2, ![256, 500000]⟩
abbrev S1x500000 : Shape := ⟨2, ![1, 500000]⟩

abbrev nBuf : Space → Nat
  | .hbm => 29
  | .vmem => 0
  | .smem => 0
  | _ => 0

abbrev bufTy : (tb : Table) → Fin (tcTables nBuf tb) → BufTy
  | .hbm, ⟨0, _⟩ => ⟨S256, .i32⟩
  | .hbm, ⟨1, _⟩ => ⟨S100000x64, .f32⟩
  | .hbm, ⟨2, _⟩ => ⟨S500000x64, .f32⟩
  | .hbm, ⟨3, _⟩ => ⟨S_, .i32⟩
  | .hbm, ⟨4, _⟩ => ⟨S256, .i32⟩
  | .hbm, ⟨5, _⟩ => ⟨S256, .i1⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256x1, .i32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S500000x64, .f32⟩
  | .hbm, ⟨17, _⟩ => ⟨S_, .f32⟩
  | .hbm, ⟨18, _⟩ => ⟨S500000, .f32⟩
  | .hbm, ⟨19, _⟩ => ⟨S256x500000, .f32⟩
  | .hbm, ⟨20, _⟩ => ⟨S1x500000, .f32⟩
  | .hbm, ⟨21, _⟩ => ⟨S256x500000, .f32⟩
  | .hbm, ⟨22, _⟩ => ⟨S256x500000, .f32⟩
  | .hbm, ⟨23, _⟩ => ⟨S256x500000, .f32⟩
  | .hbm, ⟨24, _⟩ => ⟨S_, .f32⟩
  | .hbm, ⟨25, _⟩ => ⟨S256x500000, .f32⟩
  | .hbm, ⟨26, _⟩ => ⟨S256x500000, .f32⟩
  | .hbm, ⟨27, _⟩ => ⟨S256x500000, .f32⟩
  | .hbm, ⟨28, _⟩ => ⟨S256x500000, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  reducesTo_S256x64_S256_d1 : S256x64.ReducesTo [1] S256
  h_S_ : 0 < S_.numel
  reducesTo_S500000x64_S500000_d1 : S500000x64.ReducesTo [1] S500000
  bcast_S500000_S1x500000_1 : S500000.BroadcastsInDim S1x500000 (![1] : Fin 1 → Fin S1x500000.rank)
  bcast_S256x1_S256x500000_0_1 : S256x1.BroadcastsInDim S256x500000 (![0, 1] : Fin 2 → Fin S256x500000.rank)
  bcast_S1x500000_S256x500000_0_1 : S1x500000.BroadcastsInDim S256x500000 (![0, 1] : Fin 2 → Fin S256x500000.rank)
  bcast_S_S256x500000 : S_.BroadcastsInDim S256x500000 (![] : Fin 0 → Fin S256x500000.rank)
  gather_S100000x64_S256x1_S256x64_1_0_n_n_0_1_164_wf : GatherDims.WF S100000x64 S256x1 S256x64 [1] [0] [] [0] [] 1 ![1, 64]
  dot_S256x64_S500000x64_S256x500000_1_1_0_0_n_n_wf : DotDims.WF S256x64 S500000x64 S256x500000 [1] [1] [0] [0] [] []

variable [Facts₀]

def gather_S100000x64_S256x1_S256x64_1_0_n_n_0_1_164 : GatherDims S100000x64 S256x1 S256x64 where
  offsetDims := [1]
  collapsedSliceDims := [0]
  operandBatchingDims := []
  startIndicesBatchingDims := []
  startIndexMap := [0]
  indexVectorDim := 1
  sliceSizes := ![1, 64]
  wf := gather_S100000x64_S256x1_S256x64_1_0_n_n_0_1_164_wf
def dot_S256x64_S500000x64_S256x500000_1_1_0_0_n_n : DotDims S256x64 S500000x64 S256x500000 where
  lhsContracting := [1]
  rhsContracting := [1]
  lhsNonContracting := [0]
  rhsNonContracting := [0]
  lhsBatch := []
  rhsBatch := []
  wf := dot_S256x64_S500000x64_S256x500000_1_1_0_0_n_n_wf

class Facts : Prop extends Facts₀ where

variable [Facts]
-- ==== Proof.KernelBody.lean ====
/-
  The frame of `Kernel`: the program runs to its end, faults nowhere, and leaves its three argument arrays as it
  found them — at any float instance.

  The region has one kernel on a grid of 62 points. At each point the body loads the whole 256×64 block of user
  rows (window 0), the whole 256×1 block of their squared norms (window 1) and the whole 8192×64 block of item
  rows (window 2), computes one 256×8192 block of scores from them, and stores it whole into the output's buffer
  (window 3). The 500000 item rows are not a multiple of 8192: the last block overhangs the array by 7904 rows, its
  fetch lands only the 288 rows inside the array, and the rest of that buffer holds words nothing names. So the
  body's triple is stated for ANY contents of the three input buffers; what the output buffer then holds is the
  score block of those contents, whatever they are.

  For the frame nothing has to be said about the output: the proof data names what the body leaves in windows
  0, 1 and 2 (each input block, the item block filled out past the array's end) and the obligation FORGETS
  window 3 — it is handed over at some contents and handed back at some contents.
-/
import proofs.«122002_j87969520157217_2_alg».proof.Proof.Gen.Kernel.Frame
import proofs.«122002_j87969520157217_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its buffer -/

abbrev rectU : Rect S256x64 := Rect.unit (s := S256x64) ![0, 0] S256x64.size inb_S256x64_S256x64_0_0
abbrev rectN : Rect S256x1 := Rect.unit (s := S256x1) ![0, 0] S256x1.size inb_S256x1_S256x1_0_0
abbrev rectI : Rect S8192x64 := Rect.unit (s := S8192x64) ![0, 0] S8192x64.size inb_S8192x64_S8192x64_0_0
abbrev rectO : Rect S256x8192 := Rect.unit (s := S256x8192) ![0, 0] S256x8192.size inb_S256x8192_S256x8192_0_0

/-- What the output's buffer holds after the body, from what the three input buffers hold: its one store, of the
    score block computed from the three whole loads. -/
def scoreBuf (u : Vec F S256x64 .f32) (n : Vec F S256x1 .f32) (it : Vec F S8192x64 .f32) : Vec F S256x8192 .f32 :=
  View.canon [⟨rectO, k0_pay1 (View.ld u rectU) (View.ld it rectI) (View.ld n rectN)⟩]

/-- The one store covers the buffer: its rectangle is the whole of it. -/
theorem scoreBuf_cover (p0 : Vec F S256x8192 .f32) (y : S256x8192.Idx) :
    ∃ pc ∈ ([⟨rectO, p0⟩] : List (View.Piece (Elt F) S256x8192 .f32)), y ∈ pc.1.set :=
  View.cover_of_tiled [⟨rectO, p0⟩] S256x8192.size (by rfl) y

/-! ## The body's triple -/

set_option maxHeartbeats 1000000 in
/-- The body on whole staging memrefs, the three inputs' at ANY contents `u`, `n`, `it` and the output's at anything:
    it runs to the continuation holding the inputs' as they were and the output's at `scoreBuf u n it`. -/
theorem sound_kernel (c : Dev nD) (E : Set ℕ) (i : grid0.Coords)
    (arg1 : Memref sig .tc .vmem S256x64 .f32) (harg1 : arg1.IsWhole) (arg2 : Memref sig .tc .vmem S256x1 .f32) (harg2 : arg2.IsWhole)
    (arg3 : Memref sig .tc .vmem S8192x64 .f32) (harg3 : arg3.IsWhole) (arg4 : Memref sig .tc .vmem S256x8192 .f32) (harg4 : arg4.IsWhole)
    (u : Vec F S256x64 .f32) (n : Vec F S256x1 .f32) (it : Vec F S8192x64 .f32) (K : PUnit → sProp 𝕄) :
    iprop(owns (c : Thread nD τ) arg1 fullShare u ∗ owns (c : Thread nD τ) arg2 fullShare n ∗ owns (c : Thread nD τ) arg3 fullShare it
        ∗ (∃ d, owns (c : Thread nD τ) arg4 fullShare d)
        ∗ (iprop(owns (c : Thread nD τ) arg1 fullShare u ∗ owns (c : Thread nD τ) arg2 fullShare n ∗ owns (c : Thread nD τ) arg3 fullShare it
            ∗ owns (c : Thread nD τ) arg4 fullShare (scoreBuf u n it)) -∗ K ⟨⟩))
      ⊢ wp frame (wpE (defs₀ (F := F)) Variants.none c none) E (cc0__knn_kernel i arg1 harg1 arg2 harg2 arg3 harg3 arg4 harg4) K := by
  simp only [cc0__knn_kernel_eq_skeleton]; unfold cc0__knn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scoreBuf_cover _)

/-! ## The proof data -/

/-- The item block at point `t` filled out to the whole 8192×64 buffer: the rows inside the array, and the zero word
    on the rows past its end (only the last block has any; nothing the obligations state reads them). -/
def itemsFilled (c : Dev nD) (t : Fin cfg0.N) : S8192x64.Idx → Elt F .f32 :=
  win0_2.fill (grid0.coords t) (fun _ => Scalar.ofBits .f32 0#32) (iblk m c 2 t)

/-- The proof data of the one pipeline on core `c`: the arrays as the region finds them; after the body at point `t`
    the users' and the norms' buffers at their blocks, the items' buffer at its block filled out, the output's at the
    score block of those three; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => itemsFilled m c t
    | ⟨3, _⟩ => scoreBuf (iblk m c 0 t) (iblk m c 1 t) (itemsFilled m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_users (c : Dev nD) (t : Fin cfg0.N) : (dats m 0 c).after 0 t = iblk m c 0 t := by dsimp only [dats]
theorem after_norms (c : Dev nD) (t : Fin cfg0.N) : (dats m 0 c).after 1 t = iblk m c 1 t := by dsimp only [dats]
theorem after_items (c : Dev nD) (t : Fin cfg0.N) : (dats m 0 c).after 2 t = itemsFilled m c t := by dsimp only [dats]
theorem after_scores (c : Dev nD) (t : Fin cfg0.N) :
    (dats m 0 c).after 3 t = scoreBuf (iblk m c 0 t) (iblk m c 1 t) (itemsFilled m c t) := by dsimp only [dats]

/-- The users' and the norms' buffers hold their (one) block at every point: fetched at the first point, kept after. -/
theorem before_users (c : Dev nD) (t : Fin cfg0.N) (d) : (dats m 0 c).before 0 t d = iblk m c 0 t :=
  before0_0_of m (dats m 0 c) (A_eq m c 0) (after_users m c) t d
theorem before_norms (c : Dev nD) (t : Fin cfg0.N) (d) : (dats m 0 c).before 1 t d = iblk m c 1 t :=
  before0_1_of m (dats m 0 c) (A_eq m c 1) (after_norms m c) t d

/-- The items' buffer is fetched at every point: it holds the block's rows inside the array, and past them whatever
    `d` the overwrite before the fetch left. -/
theorem before_items (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-! ## The body obligation, the output forgotten -/

/-- The one window the frame forgets: the output. -/
def forgetOut : Fin 4 → Bool := fun w => w.val == 3

/-- What the body is called with at point `t`: the invariant, what the core owes, the three inputs' current buffers
    at what they then hold, the output's at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the users' and norms' buffers at their blocks, the items' at its block on the rows inside
    the array, the output's at anything. -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ X, owns (c : Thread nD τ) (st0_3 t) fullShare X))

theorem sound_body_forget (c : Dev nD) (t : Fin cfg0.N) :
    bodyPre m c t ⊢ wp frame (wpE (defs₀ (F := F)) Variants.none c none) Set.univ (bodyAt0 t) (fun _ => bodyPostForget m c t) := by
  unfold bodyPre bodyPostForget bodyAt0
  simp only [before_users, before_norms, before_items]
  rw [show (dats m 0 c).Φ t.succ = (dats m 0 c).Φ t.castSucc from rfl,
    show (dats m 0 c).owesAt () t.succ = (dats m 0 c).owesAt () t.castSucc from rfl,
    after_users, after_norms, after_items]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    unfold itemsFilled; rw [win0_2.cut_fill]; iexact H2
  iexists _; iexact H3

theorem body_forget (c : Dev nD) :
    BodyObligationLoose (dats (F := F) m 0 c) (defs₀ (F := F)) Variants.none () Set.univ forgetOut := fun t => by
  rw [bigSep_W0, bigSep_W0]
  exact sound_body_forget m c t

/-! ## The run and the frame -/

set_option backward.isDefEq.respectTransparency.types false in
/-- Every weakly fair execution of @main terminates, and in every final state each input array of the pipeline holds
    what it held at the region's entry, and every other unscoped buffer too; nothing is said of the output. -/
theorem run_forget : θ_run defs (onTc (τ := τ) (main (F := F))) (s₀ m ρ)
    (Pipeline.RDat.FramePost (cfgs 0) (fun c => (dats m 0 c).toRForget forgetOut) (V m)) :=
  Pipeline.RDat.θ_run_frame cfgs (0 : Fin 1) launch0 defs₀ Variants.none (fun c => (dats m 0 c).toRForget forgetOut) m ρ main
    (hbody := fun c => (body_forget m c).toRForget) (hshare := fun c => ((dats m 0 c).toRForget forgetOut).share_full fun _ => rfl)
    (howed := fun _ _ => rfl) (V := V m) (hmain := hmain m Variants.none) (hA := A_eq m) (hΦ := fun _ _ => rfl)

/-- The frame: the ids and the user table bypass the region, and no host line before it writes them; the item table
    is window 2's array, an input, never written back. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     (Eq.mp (congrFun (((dats m 0 c).toRForget forgetOut).ArrAt_in 2 rfl _) _) ((h c).1 2)).trans
       ((A_eq m c 2).trans (V_main_arg2 m c))⟩) (run_forget m ρ)

end Cert.Kernel.Hand

end
-- ==== Proof.IdealBody.lean ====
/-
  The frame of `KernelIdeal`: the program runs to its end, faults nowhere, and leaves its three argument arrays as it
  found them — at any float instance.

  The region has one kernel on a grid of 62 points. At each point the body loads the whole 256×64 block of user
  rows (window 0), the whole 256×1 block of their squared norms (window 1) and the whole 8192×64 block of item
  rows (window 2), computes one 256×8192 block of scores from them, and stores it whole into the output's buffer
  (window 3). The 500000 item rows are not a multiple of 8192: the last block overhangs the array by 7904 rows, its
  fetch lands only the 288 rows inside the array, and the rest of that buffer holds words nothing names. So the
  body's triple is stated for ANY contents of the three input buffers; what the output buffer then holds is the
  score block of those contents, whatever they are.

  For the frame nothing has to be said about the output: the proof data names what the body leaves in windows
  0, 1 and 2 (each input block, the item block filled out past the array's end) and the obligation FORGETS
  window 3 — it is handed over at some contents and handed back at some contents.
-/
import proofs.«122002_j87969520157217_2_alg».proof.Proof.Gen.KernelIdeal.Frame
import proofs.«122002_j87969520157217_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its buffer -/

abbrev rectU : Rect S256x64 := Rect.unit (s := S256x64) ![0, 0] S256x64.size inb_S256x64_S256x64_0_0
abbrev rectN : Rect S256x1 := Rect.unit (s := S256x1) ![0, 0] S256x1.size inb_S256x1_S256x1_0_0
abbrev rectI : Rect S8192x64 := Rect.unit (s := S8192x64) ![0, 0] S8192x64.size inb_S8192x64_S8192x64_0_0
abbrev rectO : Rect S256x8192 := Rect.unit (s := S256x8192) ![0, 0] S256x8192.size inb_S256x8192_S256x8192_0_0

/-- What the output's buffer holds after the body, from what the three input buffers hold: its one store, of the
    score block computed from the three whole loads. -/
def scoreBuf (u : Vec F S256x64 .f32) (n : Vec F S256x1 .f32) (it : Vec F S8192x64 .f32) : Vec F S256x8192 .f32 :=
  View.canon [⟨rectO, k0_pay1 (View.ld u rectU) (View.ld it rectI) (View.ld n rectN)⟩]

/-- The one store covers the buffer: its rectangle is the whole of it. -/
theorem scoreBuf_cover (p0 : Vec F S256x8192 .f32) (y : S256x8192.Idx) :
    ∃ pc ∈ ([⟨rectO, p0⟩] : List (View.Piece (Elt F) S256x8192 .f32)), y ∈ pc.1.set :=
  View.cover_of_tiled [⟨rectO, p0⟩] S256x8192.size (by rfl) y

/-! ## The body's triple -/

set_option maxHeartbeats 1000000 in
/-- The body on whole staging memrefs, the three inputs' at ANY contents `u`, `n`, `it` and the output's at anything:
    it runs to the continuation holding the inputs' as they were and the output's at `scoreBuf u n it`. -/
theorem sound_kernel (c : Dev nD) (E : Set ℕ) (i : grid0.Coords)
    (arg1 : Memref sig .tc .vmem S256x64 .f32) (harg1 : arg1.IsWhole) (arg2 : Memref sig .tc .vmem S256x1 .f32) (harg2 : arg2.IsWhole)
    (arg3 : Memref sig .tc .vmem S8192x64 .f32) (harg3 : arg3.IsWhole) (arg4 : Memref sig .tc .vmem S256x8192 .f32) (harg4 : arg4.IsWhole)
    (u : Vec F S256x64 .f32) (n : Vec F S256x1 .f32) (it : Vec F S8192x64 .f32) (K : PUnit → sProp 𝕄) :
    iprop(owns (c : Thread nD τ) arg1 fullShare u ∗ owns (c : Thread nD τ) arg2 fullShare n ∗ owns (c : Thread nD τ) arg3 fullShare it
        ∗ (∃ d, owns (c : Thread nD τ) arg4 fullShare d)
        ∗ (iprop(owns (c : Thread nD τ) arg1 fullShare u ∗ owns (c : Thread nD τ) arg2 fullShare n ∗ owns (c : Thread nD τ) arg3 fullShare it
            ∗ owns (c : Thread nD τ) arg4 fullShare (scoreBuf u n it)) -∗ K ⟨⟩))
      ⊢ wp frame (wpE (defs₀ (F := F)) Variants.none c none) E (cc0__knn_kernel i arg1 harg1 arg2 harg2 arg3 harg3 arg4 harg4) K := by
  simp only [cc0__knn_kernel_eq_skeleton]; unfold cc0__knn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (scoreBuf_cover _)

/-! ## The proof data -/

/-- The item block at point `t` filled out to the whole 8192×64 buffer: the rows inside the array, and the zero word
    on the rows past its end (only the last block has any; nothing the obligations state reads them). -/
def itemsFilled (c : Dev nD) (t : Fin cfg0.N) : S8192x64.Idx → Elt F .f32 :=
  win0_2.fill (grid0.coords t) (fun _ => Scalar.ofBits .f32 0#32) (iblk m c 2 t)

/-- The proof data of the one pipeline on core `c`: the arrays as the region finds them; after the body at point `t`
    the users' and the norms' buffers at their blocks, the items' buffer at its block filled out, the output's at the
    score block of those three; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => itemsFilled m c t
    | ⟨3, _⟩ => scoreBuf (iblk m c 0 t) (iblk m c 1 t) (itemsFilled m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_users (c : Dev nD) (t : Fin cfg0.N) : (dats m 0 c).after 0 t = iblk m c 0 t := by dsimp only [dats]
theorem after_norms (c : Dev nD) (t : Fin cfg0.N) : (dats m 0 c).after 1 t = iblk m c 1 t := by dsimp only [dats]
theorem after_items (c : Dev nD) (t : Fin cfg0.N) : (dats m 0 c).after 2 t = itemsFilled m c t := by dsimp only [dats]
theorem after_scores (c : Dev nD) (t : Fin cfg0.N) :
    (dats m 0 c).after 3 t = scoreBuf (iblk m c 0 t) (iblk m c 1 t) (itemsFilled m c t) := by dsimp only [dats]

/-- The users' and the norms' buffers hold their (one) block at every point: fetched at the first point, kept after. -/
theorem before_users (c : Dev nD) (t : Fin cfg0.N) (d) : (dats m 0 c).before 0 t d = iblk m c 0 t :=
  before0_0_of m (dats m 0 c) (A_eq m c 0) (after_users m c) t d
theorem before_norms (c : Dev nD) (t : Fin cfg0.N) (d) : (dats m 0 c).before 1 t d = iblk m c 1 t :=
  before0_1_of m (dats m 0 c) (A_eq m c 1) (after_norms m c) t d

/-- The items' buffer is fetched at every point: it holds the block's rows inside the array, and past them whatever
    `d` the overwrite before the fetch left. -/
theorem before_items (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-! ## The body obligation, the output forgotten -/

/-- The one window the frame forgets: the output. -/
def forgetOut : Fin 4 → Bool := fun w => w.val == 3

/-- What the body is called with at point `t`: the invariant, what the core owes, the three inputs' current buffers
    at what they then hold, the output's at anything; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns: the users' and norms' buffers at their blocks, the items' at its block on the rows inside
    the array, the output's at anything. -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ X, owns (c : Thread nD τ) (st0_3 t) fullShare X))

theorem sound_body_forget (c : Dev nD) (t : Fin cfg0.N) :
    bodyPre m c t ⊢ wp frame (wpE (defs₀ (F := F)) Variants.none c none) Set.univ (bodyAt0 t) (fun _ => bodyPostForget m c t) := by
  unfold bodyPre bodyPostForget bodyAt0
  simp only [before_users, before_norms, before_items]
  rw [show (dats m 0 c).Φ t.succ = (dats m 0 c).Φ t.castSucc from rfl,
    show (dats m 0 c).owesAt () t.succ = (dats m 0 c).owesAt () t.castSucc from rfl,
    after_users, after_norms, after_items]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    unfold itemsFilled; rw [win0_2.cut_fill]; iexact H2
  iexists _; iexact H3

theorem body_forget (c : Dev nD) :
    BodyObligationLoose (dats (F := F) m 0 c) (defs₀ (F := F)) Variants.none () Set.univ forgetOut := fun t => by
  rw [bigSep_W0, bigSep_W0]
  exact sound_body_forget m c t

/-! ## The run and the frame -/

set_option backward.isDefEq.respectTransparency.types false in
/-- Every weakly fair execution of @main terminates, and in every final state each input array of the pipeline holds
    what it held at the region's entry, and every other unscoped buffer too; nothing is said of the output. -/
theorem run_forget : θ_run defs (onTc (τ := τ) (main (F := F))) (s₀ m ρ)
    (Pipeline.RDat.FramePost (cfgs 0) (fun c => (dats m 0 c).toRForget forgetOut) (V m)) :=
  Pipeline.RDat.θ_run_frame cfgs (0 : Fin 1) launch0 defs₀ Variants.none (fun c => (dats m 0 c).toRForget forgetOut) m ρ main
    (hbody := fun c => (body_forget m c).toRForget) (hshare := fun c => ((dats m 0 c).toRForget forgetOut).share_full fun _ => rfl)
    (howed := fun _ _ => rfl) (V := V m) (hmain := hmain m Variants.none) (hA := A_eq m) (hΦ := fun _ _ => rfl)

/-- The frame: the ids and the user table bypass the region, and no host line before it writes them; the item table
    is window 2's array, an input, never written back. -/
theorem frame_claim : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     (Eq.mp (congrFun (((dats m 0 c).toRForget forgetOut).ArrAt_in 2 rfl _) _) ((h c).1 2)).trans
       ((A_eq m c 2).trans (V_main_arg2 m c))⟩) (run_forget m ρ)

end Cert.KernelIdeal.Hand

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.ScoreAt.lean ====
/-
  The score block the kernel body computes, read at one entry, at the extended reals.

  From a 256×64 block `u` of user rows, a 256×1 column `n` of their squared norms and an 8192×64 block `it` of item
  rows the body computes the 256×8192 block whose entry (p, q) is

      0 − ((n(p) + Σ_k it(q,k)·it(q,k)) − 2 · Σ_k u(p,k)·it(q,k)),

  the sums over the 64 embedding coordinates: the matrix product of `u` with the TRANSPOSE of `it` into a zero
  accumulator, the rows' squared norms summed along the lanes, turned into a column, transposed into a row and
  broadcast down the 256 rows, the norms' column broadcast across the 8192 columns. The changes of float format
  (f32 to bf16 before the product) are the identity on the extended reals. Entry (p, q) depends on row q of `it`
  and on no other row.
-/
import proofs.«122002_j87969520157217_2_alg».proof.Proof.Gen.KernelIdeal.Skeleton
import proofs.«122002_j87969520157217_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Score

open Cert.KernelIdeal Cert.KernelIdeal.Gen Idealize.ShloMosaic Idealize.ShloMosaic.ValueIdx Cert.LibKeepdims

/-! ## The three pieces that are not pointwise -/

/-- The norms' column, cast to its own shape and broadcast across the columns: at (p, q) the norm of user p. -/
theorem norms_apply (n : Vec Ideal S256x1 .f32) (h : S256x1.ShapeCasts S256x1) (hb : S256x1.Broadcasts S256x8192)
    (p : Fin 256) (q : Fin 8192) :
    broadcastTo S256x8192 (shapeCast S256x1 n h) hb (ix2 p q) = n (ix2 p (0 : Fin 1)) := by
  rw [shapeCast_self]
  exact broadcastTo_a1_ab_apply n hb p q

/-- The item rows' squared norms: summed along the 64 lanes, cast to a column, transposed to a row, broadcast down
    the rows: at (p, q) the sum over the coordinates of row q's squares. -/
theorem itemNorms_apply (w : FVec Ideal S8192x64 .f32) (hr : S8192x64.Reduces [1] S8192) (hφ : FKind.Formats FTy.f32)
    (hacc : (0x00000000#32 : BitVec 32) = 0x00000000#32)
    (hs : S8192.ShapeCasts S8192x1) (ht : S8192x1.Transposes [1, 0] S1x8192) (hb : S1x8192.Broadcasts S256x8192)
    (p : Fin 256) (q : Fin 8192) :
    broadcastTo S256x8192 (transpose S1x8192 [1, 0] (shapeCast S8192x1 (multiReduction (F := Ideal) .add [1] S8192 w 0x00000000#32 hr hφ hacc) hs) ht) hb (ix2 p q)
      = ∑ k : Fin 64, w (ix2 q k) := by
  refine (broadcastTo_1b_ab_apply _ hb p q).trans ?_
  refine (transpose_ix2_apply _ ht (0 : Fin 1) q).trans ?_
  refine (shapeCast_a_a1_apply _ hs q (0 : Fin 1)).trans ?_
  exact multiReduction_add_rows w _ hr hφ hacc q

theorem lhs_ax0 (i : S256x8192.Idx) (c : dot_S256x64_S64x8192_S256x8192_1_0_0_1_n_n.contr.Idx) :
    (dot_S256x64_S64x8192_S256x8192_1_0_0_1_n_n.lhsIdx i c 0).val = (i 0).val := by
  unfold DotDims.lhsIdx
  rw [dif_neg (show ¬(0 : Fin S256x64.rank) ∈ dot_S256x64_S64x8192_S256x8192_1_0_0_1_n_n.lhsBatch by decide),
    dif_pos (show (0 : Fin S256x64.rank) ∈ dot_S256x64_S64x8192_S256x8192_1_0_0_1_n_n.lhsNonContracting by decide)]
  rfl
theorem lhs_ax1 (i : S256x8192.Idx) (c : dot_S256x64_S64x8192_S256x8192_1_0_0_1_n_n.contr.Idx) :
    (dot_S256x64_S64x8192_S256x8192_1_0_0_1_n_n.lhsIdx i c 1).val = (c ⟨0, by decide⟩).val :=
  dot_S256x64_S64x8192_S256x8192_1_0_0_1_n_n.lhsIdx_val_of_single rfl i c
theorem rhs_ax0 (i : S256x8192.Idx) (c : dot_S256x64_S64x8192_S256x8192_1_0_0_1_n_n.contr.Idx) :
    (dot_S256x64_S64x8192_S256x8192_1_0_0_1_n_n.rhsIdx i c 0).val = (c ⟨0, by decide⟩).val :=
  dot_S256x64_S64x8192_S256x8192_1_0_0_1_n_n.rhsIdx_val_of_single rfl i c
theorem rhs_ax1 (i : S256x8192.Idx) (c : dot_S256x64_S64x8192_S256x8192_1_0_0_1_n_n.contr.Idx) :
    (dot_S256x64_S64x8192_S256x8192_1_0_0_1_n_n.rhsIdx i c 1).val = (i 1).val := by
  unfold DotDims.rhsIdx
  rw [dif_neg (show ¬(1 : Fin S64x8192.rank) ∈ dot_S256x64_S64x8192_S256x8192_1_0_0_1_n_n.rhsBatch by decide),
    dif_pos (show (1 : Fin S64x8192.rank) ∈ dot_S256x64_S64x8192_S256x8192_1_0_0_1_n_n.rhsNonContracting by decide)]
  rfl

/-- The matrix product into the zero accumulator: at (p, q) the sum over k of left(p, k) · right(k, q). -/
theorem product_apply (l : FVec Ideal S256x64 .bf16) (r : FVec Ideal S64x8192 .bf16) (p : Fin 256) (q : Fin 8192) :
    matmul dot_S256x64_S64x8192_S256x8192_1_0_0_1_n_n none l r (constant (F := Ideal) S256x8192 .f32 0x00000000#32) (ix2 p q)
      = ∑ k : Fin 64, l (ix2 p k) * r (ix2 k q) := by
  refine (Ideal.matmul_constant_zero_apply dot_S256x64_S64x8192_S256x8192_1_0_0_1_n_n none l r (ix2 p q)).trans ?_
  rw [← Equiv.sum_comp (contrEquiv1 dot_S256x64_S64x8192_S256x8192_1_0_0_1_n_n 64 rfl rfl).symm]
  refine Finset.sum_congr rfl fun k _ => ?_
  have hk := contrEquiv1_symm_val dot_S256x64_S64x8192_S256x8192_1_0_0_1_n_n 64 rfl rfl k
  have el : dot_S256x64_S64x8192_S256x8192_1_0_0_1_n_n.lhsIdx (ix2 p q) ((contrEquiv1 dot_S256x64_S64x8192_S256x8192_1_0_0_1_n_n 64 rfl rfl).symm k) = ix2 p k :=
    funext fun a => Fin.ext (by
      match a with
      | ⟨0, _⟩ => exact lhs_ax0 _ _
      | ⟨1, _⟩ => exact (lhs_ax1 _ _).trans hk)
  have er : dot_S256x64_S64x8192_S256x8192_1_0_0_1_n_n.rhsIdx (ix2 p q) ((contrEquiv1 dot_S256x64_S64x8192_S256x8192_1_0_0_1_n_n 64 rfl rfl).symm k) = ix2 k q :=
    funext fun a => Fin.ext (by
      match a with
      | ⟨0, _⟩ => exact (rhs_ax0 _ _).trans hk
      | ⟨1, _⟩ => exact rhs_ax1 _ _)
  rw [el, er]

/-- The product as the body forms it: the users' block cast to its own shape and narrowed to bf16, the items' block
    narrowed and transposed; both format changes are the identity here, and the transpose swaps the coordinates:
    at (p, q) the inner product of user row p with item row q. -/
theorem cross_apply (u : Vec Ideal S256x64 .f32) (it : Vec Ideal S8192x64 .f32) (hc : S256x64.ShapeCasts S256x64)
    (hlt : FTy.bits .bf16 < FTy.bits .f32) (ht : S8192x64.Transposes [1, 0] S64x8192) (p : Fin 256) (q : Fin 8192) :
    matmul dot_S256x64_S64x8192_S256x8192_1_0_0_1_n_n none (truncf .bf16 (shapeCast S256x64 u hc) hlt)
        (transpose S64x8192 [1, 0] (truncf .bf16 it hlt) ht) (constant (F := Ideal) S256x8192 .f32 0x00000000#32) (ix2 p q)
      = ∑ k : Fin 64, u (ix2 p k) * it (ix2 q k) := by
  refine (product_apply _ _ p q).trans (Finset.sum_congr rfl fun k _ => ?_)
  have e := transpose_ix2_apply (truncf (F := Ideal) .bf16 it hlt) ht k q
  exact congrArg₂ (· * ·) (congrFun (shapeCast_self u hc) _) e

/-! ## The payload at an entry -/

/-- Entry (p, q) of the body's score block. -/
theorem score_apply (u : Vec Ideal S256x64 .f32) (it : Vec Ideal S8192x64 .f32) (n : Vec Ideal S256x1 .f32)
    (p : Fin 256) (q : Fin 8192) :
    k0_pay1 (F := Ideal) u it n (ix2 p q)
      = Ideal.ofBits .f32 0x00000000#32 - ((n (ix2 p (0 : Fin 1)) + ∑ k : Fin 64, it (ix2 q k) * it (ix2 q k))
          - Ideal.ofBits .f32 0x40000000#32 * ∑ k : Fin 64, u (ix2 p k) * it (ix2 q k)) := by
  unfold k0_pay1
  dsimp only
  show _ - ((_ + _) - _ * _) = _
  rw [norms_apply, itemNorms_apply, cross_apply]
  rfl

end Cert.KernelIdeal.Score

end
-- ==== Proof.Scores.lean ====
/-
  The specification both programs are compared with: the negated squared Euclidean distance between each scored
  user's embedding and each item's embedding, written through the decomposition ‖u‖² + ‖i‖² − 2 u·i.

  Given the 256×64 array `u` of the scored users' rows, the 256×1 column `n` of their squared norms and the
  500000×64 item table, entry (p, j) is

      −((n(p) + Σ_k item(j,k)·item(j,k)) − 2 · Σ_k u(p,k)·item(j,k)),

  the sums over the 64 embedding coordinates, on the extended reals. The factor 2 is kept as the float word both
  programs print; nothing here evaluates it.
-/
import Idealize.ShloMosaic.PureOps.Ideal
import Idealize.ShloMosaic.Lib.ValueIdx

noncomputable section

open scoped BigOperators

namespace Cert.Scores

open Idealize.ShloMosaic Idealize.ShloMosaic.ValueIdx

/-- Entry (p, j) of the score array, from the users' rows, their squared norms and the item table. -/
def scores (u : (⟨2, ![256, 64]⟩ : Shape).Idx → EReal) (n : (⟨2, ![256, 1]⟩ : Shape).Idx → EReal)
    (item : (⟨2, ![500000, 64]⟩ : Shape).Idx → EReal) : (⟨2, ![256, 500000]⟩ : Shape).Idx → EReal :=
  fun i => -((n (ix2 (i 0 : Fin 256) (0 : Fin 1)) + ∑ k : Fin 64, item (ix2 (i 1 : Fin 500000) k) * item (ix2 (i 1 : Fin 500000) k))
    - Ideal.ofBits .f32 0x40000000#32 * ∑ k : Fin 64, u (ix2 (i 0 : Fin 256) k) * item (ix2 (i 1 : Fin 500000) k))

/-- The same entry with its two coordinates named. -/
theorem scores_apply (u : (⟨2, ![256, 64]⟩ : Shape).Idx → EReal) (n : (⟨2, ![256, 1]⟩ : Shape).Idx → EReal)
    (item : (⟨2, ![500000, 64]⟩ : Shape).Idx → EReal) (p : Fin 256) (j : Fin 500000) :
    scores u n item (ix2 p j) = -((n (ix2 p (0 : Fin 1)) + ∑ k : Fin 64, item (ix2 j k) * item (ix2 j k))
      - Ideal.ofBits .f32 0x40000000#32 * ∑ k : Fin 64, u (ix2 p k) * item (ix2 j k)) := rfl

end Cert.Scores

end
-- ==== Proof.IdealRun.lean ====
/-
  The idealized kernel's run with its output named: every weakly fair execution ends with the result array holding
  the score array of the gathered user rows, their squared norms and the item table.

  The frame (the module this one imports) forgot the output window. Here it is kept, at the extended reals, where
  entry (p, q) of the body's score block depends on row q of the item block and on no other row. The last grid
  point's item buffer holds, past the array's end, words nothing names; they reach only the columns of the score
  block past the array's end, which the clipped write-back never writes. So the part of the score block that IS
  written back is the same whatever those words are, and that is all the obligation of a clipped window states.

  Point t writes back columns t·8192 … of the result, 8192 of them but for the last point's 288; together the 62
  points' blocks cover the array, and each is the corresponding block of ONE array, the specification's.
-/
import proofs.«122002_j87969520157217_2_alg».proof.Proof.IdealBody
import proofs.«122002_j87969520157217_2_alg».proof.Proof.ScoreAt
import proofs.«122002_j87969520157217_2_alg».proof.Proof.Scores

set_option maxRecDepth 16384

noncomputable section

open scoped BigOperators

namespace Cert.KernelIdeal.Hand

open Cert.KernelIdeal Cert.KernelIdeal.Gen Cert.KernelIdeal.Score Cert.Scores
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem zeros2 : (![0, 0] : Fin 2 → Nat) = fun _ => 0 := funext fun a => by fin_cases a <;> rfl

/-- What the output's buffer holds after the body is the body's payload of the three buffers' contents: the loads and
    the store are of whole buffers. -/
theorem scoreBuf_eq (u : Vec Ideal S256x64 .f32) (n : Vec Ideal S256x1 .f32) (it : Vec Ideal S8192x64 .f32) :
    scoreBuf u n it = k0_pay1 u it n := by
  unfold scoreBuf
  rw [View.canon_unit_zero zeros2]
  simp only [View.ld_unit_zero (S := S256x64) zeros2, View.ld_unit_zero (S := S8192x64) zeros2, View.ld_unit_zero (S := S256x1) zeros2]

/-! ## The windows over the grid -/

/-- The printed index maps and cuts, decided over the 62 points: the users' and the norms' windows stay at block 0;
    the items' window moves down the rows and the output's across the columns with the point; the two are cut alike,
    to the columns (rows) still inside the array. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_2.xsize (grid0.coords t) (0 : Fin 2) = win0_3.xsize (grid0.coords t) (1 : Fin 2)
    ∧ win0_2.xsize (grid0.coords t) (1 : Fin 2) = 64
    ∧ win0_3.xsize (grid0.coords t) (0 : Fin 2) = 256
    ∧ win0_3.xsize (grid0.coords t) (1 : Fin 2) = min 8192 (500000 - t.val * 8192) :=
  (by decide +kernel : ∀ t : Fin grid0.N, _)

/-- On the part a fetch fills, what the buffer held before does not matter. -/
theorem fill_indep (t : Fin cfg0.N) (d d' : S8192x64.Idx → Elt Ideal .f32)
    (g : (win0_2.xblock (grid0.coords t)).Idx → Elt Ideal .f32) (j : S8192x64.Idx)
    (hm : win0_2.moved (grid0.coords t) j = true) :
    win0_2.fill (grid0.coords t) d g j = win0_2.fill (grid0.coords t) d' g j := by
  unfold Window.fill; rw [dif_pos hm, dif_pos hm]

/-- A row of the item buffer that a column of the written-back score block reads is inside the fetched part. -/
theorem moved_row (t : Fin cfg0.N) (q : Fin 8192) (k : Fin 64) (hq : q.val < win0_3.xsize (grid0.coords t) (1 : Fin 2)) :
    win0_2.moved (grid0.coords t) (ix2 q k) = true := by
  obtain ⟨-, -, -, -, -, -, -, -, f8, f9, -, -⟩ := grid_facts t
  refine (win0_2.moved_iff _ _).mpr fun a => ?_
  match a with
  | ⟨0, _⟩ => show q.val < win0_2.xsize (grid0.coords t) (0 : Fin 2); rw [f8]; exact hq
  | ⟨1, _⟩ => show k.val < win0_2.xsize (grid0.coords t) (1 : Fin 2); rw [f9]; exact k.isLt

/-- LOCALITY: the part of the score block the clipped write-back moves does not depend on what the item buffer
    holds past the fetched rows. -/
theorem cut_score_indep (t : Fin cfg0.N) (u : Vec Ideal S256x64 .f32) (n : Vec Ideal S256x1 .f32)
    (g : (win0_2.xblock (grid0.coords t)).Idx → Elt Ideal .f32) (d d' : S8192x64.Idx → Elt Ideal .f32) :
    win0_3.cut (grid0.coords t) (scoreBuf u n (win0_2.fill (grid0.coords t) d g))
      = win0_3.cut (grid0.coords t) (scoreBuf u n (win0_2.fill (grid0.coords t) d' g)) := by
  funext y
  show scoreBuf u n _ (win0_3.xinj (grid0.coords t) y) = scoreBuf u n _ (win0_3.xinj (grid0.coords t) y)
  obtain ⟨p, q, hq, e⟩ : ∃ (p : Fin 256) (q : Fin 8192), q.val < win0_3.xsize (grid0.coords t) (1 : Fin 2)
      ∧ win0_3.xinj (grid0.coords t) y = ix2 p q :=
    ⟨win0_3.xinj (grid0.coords t) y 0, win0_3.xinj (grid0.coords t) y 1, (y 1).isLt,
      funext fun a => by match a with | ⟨0, _⟩ => rfl | ⟨1, _⟩ => rfl⟩
  rw [scoreBuf_eq, scoreBuf_eq, e, score_apply, score_apply]
  have hrow : ∀ k : Fin 64, win0_2.fill (grid0.coords t) d g (ix2 q k) = win0_2.fill (grid0.coords t) d' g (ix2 q k) :=
    fun k => fill_indep t d d' g _ (moved_row t q k hq)
  simp only [hrow]

/-! ## The body obligation, the output kept -/

/-- What the body returns at point `t`: as in the frame, but the output's buffer at the score block of the three input
    blocks on the part the write-back moves. -/
def bodyPostExact (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

/-- The body is handed the output's buffer at some contents, whatever the proof data says it found there. -/
def bodyPreExact (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

theorem sound_body_exact (c : Dev nD) (t : Fin cfg0.N) :
    bodyPreExact m c t ⊢ wp frame (wpE (defs₀ (F := Ideal)) Variants.none c none) Set.univ (bodyAt0 t) (fun _ => bodyPostExact m c t) := by
  unfold bodyPreExact bodyPostExact bodyAt0
  simp only [before_users, before_norms, before_items]
  rw [show (dats m 0 c).Φ t.succ = (dats m 0 c).Φ t.castSucc from rfl,
    show (dats m 0 c).owesAt () t.succ = (dats m 0 c).owesAt () t.castSucc from rfl,
    after_users, after_norms, after_items, after_scores]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t)
    (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    unfold itemsFilled; rw [win0_2.cut_fill]; iexact H2
  iexists scoreBuf (iblk m c 0 t) (iblk m c 1 t) (win0_2.fill (grid0.coords t) d2 (iblk m c 2 t))
  unfold itemsFilled
  have key := win0_3.fill_congr_cut (grid0.coords t) (cut_score_indep t (iblk m c 0 t) (iblk m c 1 t) (iblk m c 2 t) d2
    (fun _ => FloatOps.ofBits (F := Ideal) FTy.f32 0#32))
  change _ ⊢ owns (c : Thread nD τ) (st0_3 t) fullShare (win0_3.fill (grid0.coords t)
    (scoreBuf (iblk m c 0 t) (iblk m c 1 t) (win0_2.fill (grid0.coords t) d2 (iblk m c 2 t)))
    (win0_3.cut (grid0.coords t) (scoreBuf (iblk m c 0 t) (iblk m c 1 t)
      (win0_2.fill (grid0.coords t) (fun _ => FloatOps.ofBits (F := Ideal) FTy.f32 0#32) (iblk m c 2 t)))))
  erw [key]

theorem body_exact (c : Dev nD) :
    BodyObligationLoose (dats (F := Ideal) m 0 c) (defs₀ (F := Ideal)) Variants.none () Set.univ := fun t => by
  rw [bigSep_W0, bigSep_W0]
  exact sound_body_exact m c t

set_option backward.isDefEq.respectTransparency.types false in
/-- Every weakly fair execution of @main terminates, every array of the pipeline at the contents the proof data
    determines (its entry contents overwritten block by block by what each point writes back), every other unscoped
    buffer as the region found it. -/
theorem run_exact : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_exact m c) (hshare := fun c => (dats m 0 c).share_full fun _ => rfl)
    (howed := fun _ _ => rfl) (V := V m) (hmain := hmain m Variants.none) (hA := A_eq m) (hΦ := fun _ _ => rfl)

end Cert.KernelIdeal.Hand

end
-- ==== Proof.IdealValue.lean ====
/-
  The result array of the idealized kernel after the run is the specification's score array of the arrays the region
  finds: the gathered user rows, the column of their squared norms, the item table.

  What point t writes back is the part of its score block inside the array: rows 0…255, and of the columns
  t·8192 + y the first min(8192, 500000 − t·8192). Entry (p, y) of that block is computed from user row p (window 0's
  one block IS the user array), from norm p (likewise) and from row y of the item block, which for a column inside the
  array is a fetched row, row t·8192 + y of the item table. So the block is the same block of ONE array, and the 62
  blocks' column ranges cover the 500000 columns: column j is in the block of point j / 8192.
-/
import proofs.«122002_j87969520157217_2_alg».proof.Proof.IdealRun

set_option maxRecDepth 16384

noncomputable section

open scoped BigOperators

namespace Cert.KernelIdeal.Hand

open Cert.KernelIdeal Cert.KernelIdeal.Gen Cert.KernelIdeal.Score Cert.Scores
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The input blocks, read at an entry -/

/-- The users' one block is the user array. -/
theorem users_apply (c : Dev nD) (t : Fin cfg0.N) (p : Fin 256) (k : Fin 64) :
    iblk m c 0 t (ix2 p k) = V m c main_v6 (ix2 p k) := by
  obtain ⟨f0, f1, -⟩ := grid_facts t
  show V m c main_v6 (((cfg0.win 0).blk t).view.emb (ix2 p k)) = V m c main_v6 (ix2 p k)
  refine congrArg _ (funext fun a => Fin.ext ?_)
  match a with
  | ⟨0, _⟩ => show win0_0.index t (0 : Fin 2) * 256 + 1 * p.val = p.val; rw [f0]; omega
  | ⟨1, _⟩ => show win0_0.index t (1 : Fin 2) * 64 + 1 * k.val = k.val; rw [f1]; omega

/-- The norms' one block is the norms' column. -/
theorem normsCol_apply (c : Dev nD) (t : Fin cfg0.N) (p : Fin 256) (z : Fin 1) :
    iblk m c 1 t (ix2 p z) = V m c main_v9 (ix2 p z) := by
  obtain ⟨-, -, f2, f3, -⟩ := grid_facts t
  show V m c main_v9 (((cfg0.win 1).blk t).view.emb (ix2 p z)) = V m c main_v9 (ix2 p z)
  refine congrArg _ (funext fun a => Fin.ext ?_)
  match a with
  | ⟨0, _⟩ => show win0_1.index t (0 : Fin 2) * 256 + 1 * p.val = p.val; rw [f2]; omega
  | ⟨1, _⟩ => show win0_1.index t (1 : Fin 2) * 1 + 1 * z.val = z.val; rw [f3]; omega

/-- A row of the item buffer under a column inside the array is a row of the item table: row t·8192 + q. -/
theorem items_apply (c : Dev nD) (t : Fin cfg0.N) (q : Fin 8192) (k : Fin 64)
    (hq : q.val < win0_3.xsize (grid0.coords t) (1 : Fin 2)) (r : Fin 500000) (hr : r.val = t.val * 8192 + q.val) :
    itemsFilled m c t (ix2 q k) = V m c main_arg2 (ix2 r k) := by
  obtain ⟨-, -, -, -, f4, f5, -⟩ := grid_facts t
  unfold itemsFilled Window.fill
  rw [dif_pos (moved_row t q k hq)]
  show V m c main_arg2 (((cfg0.win 2).blk t).view.emb _) = V m c main_arg2 (ix2 r k)
  refine congrArg _ (funext fun a => Fin.ext ?_)
  match a with
  | ⟨0, _⟩ => show win0_2.index t (0 : Fin 2) * 8192 + 1 * q.val = r.val; rw [f4, hr]; omega
  | ⟨1, _⟩ => show win0_2.index t (1 : Fin 2) * 64 + 1 * k.val = k.val; rw [f5]; omega

/-! ## What a point writes back -/

/-- WHAT POINT t WRITES BACK is block t — cut at the array's end — of the score array of the region-entry arrays. -/
theorem flushed_scores (c : Dev nD) (t : Fin cfg0.N) :
    (dats m 0 c).flushed 3 t
      = ((cfg0.win 3).blk t).view.read (Elt Ideal) (scores (V m c main_v6) (V m c main_v9) (V m c main_arg2)) := by
  show (cfg0.win 3).cut (grid0.coords t) ((dats m 0 c).after 3 t) = _
  rw [after_scores, scoreBuf_eq]
  obtain ⟨-, -, -, -, -, -, f6, f7, -, -, f10, f11⟩ := grid_facts t
  funext y
  have hy0 : (y 0).val < 256 := lt_of_lt_of_eq (y 0).isLt f10
  have hy1 : (y 1).val < min 8192 (500000 - t.val * 8192) := lt_of_lt_of_eq (y 1).isLt f11
  have hy1a : (y 1).val < 8192 := by omega
  have hy1b : t.val * 8192 + (y 1).val < 500000 := by omega
  have e : win0_3.xinj (grid0.coords t) y = ix2 (⟨(y 0).val, hy0⟩ : Fin 256) (⟨(y 1).val, hy1a⟩ : Fin 8192) :=
    funext fun a => by match a with | ⟨0, _⟩ => rfl | ⟨1, _⟩ => rfl
  have e' : ((cfg0.win 3).blk t).view.emb y
      = ix2 (⟨(y 0).val, hy0⟩ : Fin 256) (⟨t.val * 8192 + (y 1).val, hy1b⟩ : Fin 500000) :=
    funext fun a => Fin.ext (by
      match a with
      | ⟨0, _⟩ => show win0_3.index t (0 : Fin 2) * 256 + 1 * (y 0).val = (y 0).val; rw [f6]; omega
      | ⟨1, _⟩ => show win0_3.index t (1 : Fin 2) * 8192 + 1 * (y 1).val = t.val * 8192 + (y 1).val; rw [f7]; omega)
  show k0_pay1 (iblk m c 0 t) (itemsFilled m c t) (iblk m c 1 t) (win0_3.xinj (grid0.coords t) y)
    = scores (V m c main_v6) (V m c main_v9) (V m c main_arg2) (((cfg0.win 3).blk t).view.emb y)
  rw [e, e', score_apply, scores_apply]
  have hU : ∀ k : Fin 64, iblk m c 0 t (ix2 (⟨(y 0).val, hy0⟩ : Fin 256) k) = V m c main_v6 (ix2 (⟨(y 0).val, hy0⟩ : Fin 256) k) :=
    fun k => users_apply m c t _ k
  have hC : iblk m c 1 t (ix2 (⟨(y 0).val, hy0⟩ : Fin 256) (0 : Fin 1)) = V m c main_v9 (ix2 (⟨(y 0).val, hy0⟩ : Fin 256) (0 : Fin 1)) :=
    normsCol_apply m c t _ _
  have hI : ∀ k : Fin 64, itemsFilled m c t (ix2 (⟨(y 1).val, hy1a⟩ : Fin 8192) k)
      = V m c main_arg2 (ix2 (⟨t.val * 8192 + (y 1).val, hy1b⟩ : Fin 500000) k) :=
    fun k => items_apply m c t _ k (y 1).isLt _ rfl
  simp only [hU, hC, hI]
  rw [Ideal.ofBits_zero_f32, zero_sub]

/-! ## The blocks cover the array -/

/-- An entry of the result is in point t's block iff each coordinate is in the block's range, cut at the array's end. -/
theorem mem_blk_scores (t : Fin cfg0.N) (i : S256x500000.Idx) :
    i ∈ ((cfg0.win 3).blk t).view.set ↔ ∀ a : Fin 2, win0_3.index t a * S256x8192.size a ≤ (i a).val
      ∧ (i a).val < win0_3.index t a * S256x8192.size a + win0_3.xsize (grid0.coords t) a := by
  show i ∈ ((View.whole main_v10).slice (win0_3.rect t)).set ↔ _
  rw [View.set_slice_whole, Rect.mem_set_unit]
  exact Iff.rfl

/-- Column j is written back by point j / 8192. -/
theorem covered (i : S256x500000.Idx) :
    ∃ t : Fin cfg0.N, (cfg0.win 3).flush t = true ∧ i ∈ ((cfg0.win 3).blk t).view.set := by
  have h0 : (i 0).val < 256 := (i 0).isLt
  have h1 : (i 1).val < 500000 := (i 1).isLt
  have hN : cfg0.N = 62 := N_0
  obtain ⟨t, ht⟩ : ∃ t : Fin cfg0.N, t.val = (i 1).val / 8192 := ⟨⟨(i 1).val / 8192, by rw [hN]; omega⟩, rfl⟩
  refine ⟨t, flush0_3 t, ?_⟩
  rw [mem_blk_scores]
  obtain ⟨-, -, -, -, -, -, f6, f7, -, -, f10, f11⟩ := grid_facts t
  intro a
  match a with
  | ⟨0, _⟩ =>
    show win0_3.index t (0 : Fin 2) * 256 ≤ (i 0).val ∧ (i 0).val < win0_3.index t (0 : Fin 2) * 256 + win0_3.xsize (grid0.coords t) (0 : Fin 2)
    rw [f6, f10]; omega
  | ⟨1, _⟩ =>
    show win0_3.index t (1 : Fin 2) * 8192 ≤ (i 1).val ∧ (i 1).val < win0_3.index t (1 : Fin 2) * 8192 + win0_3.xsize (grid0.coords t) (1 : Fin 2)
    rw [f7, f11]; omega

/-- THE RESULT ARRAY after the run. -/
theorem final_scores (c : Dev nD) :
    (dats m 0 c).arrAt 3 cfg0.N = scores (V m c main_v6) (V m c main_v9) (V m c main_arg2) :=
  (dats m 0 c).arrAt_eq_of_cover 3 _ (fun t _ => flushed_scores m c t) covered

/-- The run, read: the result array at the score array of the region-entry arrays, the three arguments unchanged
    (the ids and the user table bypass the region; the item table is an input window's array). -/
theorem kernel_run : θ_run defs (onTc (τ := τ) (main (F := Ideal))) ⟨m, fun _ => 0, ρ⟩ (fun r => ∀ c : Dev nD,
      r.2.mem ((c.tc : Thread nD τ).loc main_v10) = scores (V m c main_v6) (V m c main_v9) (V m c main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final_scores m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).1 2).trans (((dats m 0 c).arrAt_in 2 rfl _).trans ((A_eq m c 2).trans (V_main_arg2 m c)))⟩) (run_exact m ρ)

end Cert.KernelIdeal.Hand

end
-- ==== Proof.RefScores.lean ====
/-
  The reference computes the specification's score array.

  Its last stage, read at entry (p, j) one operation at a time, is the negation of
  (norm of user p, broadcast, plus the sum of the squares of item row j started from the zero word)
  minus (the word 2, broadcast, times the inner product of user row p with item row j), where the user rows are the
  gathered ones and their norms the reference's own reduction of them: both enter as they are, never opened.
  The zero the sum starts from is the real number 0; that is the one fact about a float word used here.
-/
import proofs.«122002_j87969520157217_2_alg».proof.Proof.Gen.ReferenceIdeal.Read
import proofs.«122002_j87969520157217_2_alg».proof.Proof.Scores
import Idealize.ShloMosaic.PureOps.Ideal.Laws

noncomputable section

open scoped BigOperators

namespace Cert.ReferenceIdeal.RefValue

open Cert.ReferenceIdeal Cert.ReferenceIdeal.Gen Cert.ReferenceIdeal.Read Cert.Scores
open Idealize.ShloMosaic Idealize.ShloMosaic.ValueIdx

/-- The reference's result, as a function of its three arguments, is the score array of the gathered user rows, the
    column of their squared norms, and the item table. -/
theorem ref_scores (x0 : (⟨S256, .i32⟩ : BufTy).Contents (Elt Ideal)) (x1 : (⟨S100000x64, .f32⟩ : BufTy).Contents (Elt Ideal))
    (x2 : (⟨S500000x64, .f32⟩ : BufTy).Contents (Elt Ideal)) :
    val_main_v20 (F := Ideal) x0 x1 x2 = scores (val_main_v6 (F := Ideal) x0 x1) (val_main_v9 (F := Ideal) x0 x1) x2 := by
  funext i
  obtain ⟨p, j, rfl⟩ : ∃ (p : Fin 256) (j : Fin 500000), i = ix2 p j := ⟨i 0, i 1, eq_ix2 i⟩
  have i14 : idx_main_v14 (ix2 p j) = ix2 p (0 : Fin 1) :=
    funext fun a => Fin.ext (by match a with | ⟨0, _⟩ => rfl | ⟨1, _⟩ => rfl)
  have i11 : ∀ k : Fin 64, idx_main_v11 (idx_main_v13 (idx_main_v15 (ix2 p j))) k = ix2 j k := fun k =>
    funext fun a => Fin.ext (by match a with | ⟨0, _⟩ => rfl | ⟨1, _⟩ => rfl)
  have il : ∀ k : Fin 64, lidx_main_v12 (ix2 p j) k = ix2 p k := fun k =>
    funext fun a => Fin.ext (by match a with | ⟨0, _⟩ => rfl | ⟨1, _⟩ => rfl)
  have ir : ∀ k : Fin 64, ridx_main_v12 (ix2 p j) k = ix2 j k := fun k =>
    funext fun a => Fin.ext (by match a with | ⟨0, _⟩ => rfl | ⟨1, _⟩ => rfl)
  rw [scores_apply, val_main_v20_apply, val_main_v19_apply, val_main_v16_apply, val_main_v18_apply, val_main_v14_apply,
    val_main_v15_apply, val_main_v13_apply, val_main_v11_apply, val_main_v17_apply, val_main_cst_2_apply,
    val_main_v12_apply, val_main_cst_1_apply]
  simp only [i14, i11, il, ir, val_main_v10_apply, Ideal.hostNegf_def, Ideal.negf_def, Ideal.subf_def, Ideal.addf_def,
    Ideal.mulf_def, Ideal.ofBits_def, Ideal.ofBits_zero_f32, zero_add]

end Cert.ReferenceIdeal.RefValue

end
-- ==== Proof.lean ====
/-
  The certificate of the scoring kernel against its reference.

  Both programs gather the 256 scored users' rows out of the user table and sum each row's squares on the host, with
  the same operations. The reference then forms, for every user p and item j, the negation of
  (‖u_p‖² + ‖i_j‖²) − 2·(u_p · i_j) over the whole 256×500000 array. The kernel forms the same array block by block:
  62 blocks of 8192 item rows, the last overhanging the table by 7904 rows that the clipped transfers neither read
  into the result nor write back. On the extended reals the two are one function of the arguments, entry by entry:
  the kernel's subtraction from the zero word is the reference's negation, its matrix product into a zero
  accumulator the reference's contraction, its lane sum the reference's sum started from zero; no law used needs the
  inputs to be finite.

  The frames: the word-level kernel's and the idealized kernel's by the same argument at their two float instances
  (the body, run on whatever the buffers hold, touches only its four staging buffers); the reference's from its run.
  The ideal pass rewrote nothing, so there is nothing to preserve.
-/
import proofs.«122002_j87969520157217_2_alg».proof.Defs
import proofs.«122002_j87969520157217_2_alg».proof.Proof.Gen.Kernel
import proofs.«122002_j87969520157217_2_alg».proof.Proof.Gen.KernelIdeal
import proofs.«122002_j87969520157217_2_alg».proof.Proof.Gen.ReferenceIdeal
import proofs.«122002_j87969520157217_2_alg».proof.Proof.Gen.ReferenceIdeal.Run
import proofs.«122002_j87969520157217_2_alg».proof.Proof.Gen.ReferenceIdeal.Read
import proofs.«122002_j87969520157217_2_alg».proof.Proof.Gen.Pre_finite_inputs
import proofs.«122002_j87969520157217_2_alg».proof.Proof.KernelBody
import proofs.«122002_j87969520157217_2_alg».proof.Proof.IdealValue
import proofs.«122002_j87969520157217_2_alg».proof.Proof.RefScores
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo Cert.Scores

/-! ## The arrays the kernel's region finds are the reference's stages -/

/-- The gathered user rows: the kernel's host lines before the region are the reference's first lines. -/
theorem users_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v6 : Cert.KernelIdeal.S256x64.Idx → EReal)
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.hostOps0]; after_results; rfl

/-- The column of their squared norms, likewise. -/
theorem norms_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v9 : Cert.KernelIdeal.S256x1.Idx → EReal)
      = Cert.ReferenceIdeal.Read.val_main_v9 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.hostOps0]; after_results; rfl

/-! ## The claims -/

theorem frame_k : Cert.frame_Kernel := fun m ρ _ => Cert.Kernel.Hand.frame_claim (F := Bits) m ρ

theorem frame_ki : Cert.frame_KernelIdeal := fun m ρ _ => Cert.KernelIdeal.Hand.frame_claim (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the score array of the gathered rows, their
    norms and the item table. -/
theorem algebraic : Cert.algebraic_KernelIdeal_ReferenceIdeal := by
  intro m ρ m' ρ' _ hagree
  refine ⟨fun c => scores
      (Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Hand.kernel_run m ρ)
    rw [users_eq, norms_eq, Cert.KernelIdeal.Gen.V_main_arg2]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, Cert.ReferenceIdeal.RefValue.ref_scores,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
